-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S512x4096 .f32
  ∧ IdealRules.sign_bit.Statement Cert.KernelIdeal.S512x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S512x4096 : Shape := ⟨2, ![512, 4096]⟩

abbrev nBuf : Space → Nat
  | .hbm => 5
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S4096x4096, .bf16⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | .local _ .vmem, ⟨10, _⟩ => ⟨S4096x4096, .bf16⟩
  | .local _ .vmem, ⟨11, _⟩ => ⟨S512x4096, .f32⟩
  | .local _ .vmem, ⟨12, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S512x4096_S512x4096 : S512x4096.ShapeCasts S512x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  dot_S512x4096_S4096x4096_S512x4096_1_0_0_1_n_n_wf : DotDims.WF S512x4096 S4096x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S8192x4096.size a
  hwx2_0 : ∀ i : grid2.Coords, EltTy.bits .bf16 = 32 ∨ (Rect.block (s := S8192x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x4096.size a ≤ S4096x4096.size a
  hwx2_1 : ∀ i : grid2.Coords, EltTy.bits .bf16 = 32 ∨ (Rect.block (s := S4096x4096) S4096x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x4096.size a ≤ S8192x4096.size a
  hwx2_2 : ∀ i : grid2.Coords, EltTy.bits .f32 = 32 ∨ (Rect.block (s := S8192x4096) S512x4096.size (cc2_transform_2 i) (hinb2_2 i)).WholeWords (EltTy.packing .f32)

variable [Facts₀]

def dot_S512x4096_S4096x4096_S512x4096_1_0_0_1_n_n : DotDims S512x4096 S4096x4096 S512x4096 where
  lhsContracting := [1]
  rhsContracting := [0]
  lhsNonContracting := [0]
  rhsNonContracting := [1]
  lhsBatch := []
  rhsBatch := []
  wf := dot_S512x4096_S4096x4096_S512x4096_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_call0_v0) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v1) S4096x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S512x4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S4096x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The result both programs compute, stated once over the extended reals: the matrix product of the entrywise
  signs of `x` (8192 × 4096) and `w` (4096 × 4096).  Entry `(p, j)` is the sum over `q < 4096` of
  `sign (x (p, q)) · sign (w (q, j))`, with `sign` the order's sign (`-1` below zero, `0` at zero, `1` above,
  the infinities taking `∓1`).  No law of arithmetic is needed between the two programs: each of them forms
  exactly these signs and exactly this sum, so nothing here depends on the inputs being finite.
-/
import Idealize.ShloMosaic.Lib.ValueIdx
import Idealize.ShloMosaic.PureOps.Ideal.Laws

noncomputable section

namespace Cert.BinaryDense

open Idealize.ShloMosaic Idealize.ShloMosaic.ValueIdx

/-- The sign of every entry of an array. -/
def sgn {s : Shape} (x : s.Idx → EReal) : s.Idx → EReal := fun i => Ideal.sign (x i)

theorem sgn_apply {s : Shape} (x : s.Idx → EReal) (i : s.Idx) : sgn x i = Ideal.sign (x i) := rfl

/-- The product of an `M × K` matrix with a `K × N` matrix, entry by entry. -/
def prod {M K N : Nat} (a : (⟨2, ![M, K]⟩ : Shape).Idx → EReal) (b : (⟨2, ![K, N]⟩ : Shape).Idx → EReal) :
    (⟨2, ![M, N]⟩ : Shape).Idx → EReal :=
  fun i => ∑ q : Fin K, a (ix2 (i 0) q) * b (ix2 q (i 1))

/-- The product at an entry written by its coordinates. -/
theorem prod_ix2 {M K N : Nat} (a : (⟨2, ![M, K]⟩ : Shape).Idx → EReal) (b : (⟨2, ![K, N]⟩ : Shape).Idx → EReal)
    (p : Fin M) (j : Fin N) : prod a b (ix2 p j) = ∑ q : Fin K, a (ix2 p q) * b (ix2 q j) := rfl

/-- The binary dense layer: the product of the signs. -/
def result (x : (⟨2, ![8192, 4096]⟩ : Shape).Idx → EReal) (w : (⟨2, ![4096, 4096]⟩ : Shape).Idx → EReal) :
    (⟨2, ![8192, 4096]⟩ : Shape).Idx → EReal :=
  prod (sgn x) (sgn w)

end Cert.BinaryDense

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.RefValue.lean ====
/-
  The reference's result is the product of the signs.  The host takes the sign of each input entry by entry
  and contracts the columns of the first with the rows of the second; at an entry `(p, j)` that contraction is
  the sum over `q` of the two signs' product, which is the specification's entry.
-/
import proofs.«106237_j39573828666264_2_alg».proof.Proof.Gen.ReferenceIdeal.Read
import proofs.«106237_j39573828666264_2_alg».proof.Proof.Spec
import proofs.«106237_j39573828666264_2_alg».proof.Proof.LibPlainDot

noncomputable section

namespace Cert.ReferenceIdeal.RefValue

open Cert.ReferenceIdeal Cert.ReferenceIdeal.Gen Idealize.ShloMosaic Idealize.ShloMosaic.ValueIdx

/-- The term the reference's run ends at, as a function of the two inputs, is the specification. -/
theorem result_eq (x : FVec Ideal S8192x4096 .f32) (w : FVec Ideal S4096x4096 .f32) :
    Host.dotGeneral dot_S8192x4096_S4096x4096_S8192x4096_1_0_0_1_n_n none (Host.sign x) (Host.sign w)
      = Cert.BinaryDense.result x w := by
  funext i
  obtain ⟨p, j, rfl⟩ : ∃ (p : Fin 8192) (j : Fin 4096), i = ix2 p j := ⟨i 0, i 1, eq_ix2 i⟩
  exact Cert.PlainDot.dotGeneral_ix2 dot_S8192x4096_S4096x4096_S8192x4096_1_0_0_1_n_n rfl none (Host.sign x) (Host.sign w) p j

end Cert.ReferenceIdeal.RefValue

end
-- ==== Proof.KernelRun.lean ====
/-
  The idealized kernel's run with its result buffer named.  The program is three kernel launches in a row: the
  signs of `x` into a first intermediate array, the signs of `w` into a second, and the product of the two
  intermediates into the result.  The buffer contents at the four boundaries are a fold `W0 … W3` from the launch
  memory: each launch leaves its own arrays at what its write-backs built and every other buffer as it found it.
  The run below ends with every unscoped buffer at the last boundary's contents, so in particular the result
  buffer ends at `W3` there, and the two arguments end as launched.
-/
import proofs.«106237_j39573828666264_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the three launches terminates, nothing faulting, with the result buffer at the
    last boundary's contents and the arguments as launched. -/
theorem run : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_main_arg0 m ρ c),
       (h c _ (mem_uc main_arg1 (by decide))).trans (W3_main_arg1 m ρ c)⟩)

end Cert.KernelIdeal.Run

end
-- ==== Proof.Payloads.lean ====
/-
  What each of the three kernel bodies stores, as a function of the blocks it loads.
  The two binarizing bodies store, entry by entry, `x` where `|x| > 0` fails and otherwise `-1` or `1` according to
  `x < 0`; on the extended reals that is the order's sign of `x` (the narrowing to sixteen bits changes no value).
  The product body multiplies a 512 × 4096 block of the first intermediate by the whole 4096 × 4096 second
  intermediate into a zero accumulator: entry `(p, j)` is the sum over `q` of the two entries' product.
-/
import proofs.«106237_j39573828666264_2_alg».proof.Proof.Gen.KernelIdeal.Skeleton
import proofs.«106237_j39573828666264_2_alg».proof.Proof.Spec
import proofs.«106237_j39573828666264_2_alg».proof.Proof.LibPlainDot
import Idealize.ShloMosaic.Lib.Pipeline.Value

noncomputable section

namespace Cert.KernelIdeal.Payloads

open Cert.KernelIdeal Cert.KernelIdeal.Gen Idealize.ShloMosaic Idealize.ShloMosaic.ValueIdx

/-- The first binarizing body stores the sign of every entry of its block. -/
theorem pay0_sign (x : Vec Ideal S512x4096 .f32) : k0_pay1 (F := Ideal) x = Cert.BinaryDense.sgn x :=
  funext fun i => Ideal.jnp_sign_eq_sign_f32 (x i)

/-- So does the second. -/
theorem pay1_sign (x : Vec Ideal S512x4096 .f32) : k1_pay1 (F := Ideal) x = Cert.BinaryDense.sgn x :=
  funext fun i => Ideal.jnp_sign_eq_sign_f32 (x i)

/-- The product body stores the product of its two blocks. -/
theorem pay2_prod (a : Vec Ideal S512x4096 .bf16) (b : Vec Ideal S4096x4096 .bf16) :
    k2_pay1 (F := Ideal) a b = Cert.BinaryDense.prod a b := by
  funext i
  obtain ⟨p, j, rfl⟩ : ∃ (p : Fin 512) (j : Fin 4096), i = ix2 p j := ⟨i 0, i 1, eq_ix2 i⟩
  unfold k2_pay1
  rw [shapeCast_self, shapeCast_self]
  exact Cert.PlainDot.matmul_zero_ix2 dot_S512x4096_S4096x4096_S512x4096_1_0_0_1_n_n rfl none a b p j

end Cert.KernelIdeal.Payloads

end
-- ==== Proof.SignX.lean ====
/-
  The first binarizing launch: the signs of `x` into the first intermediate array.  The grid has 16 points; point `t` loads rows `512·t … 512·t + 511` of
  the input (all 4096 columns), stores the sign of every entry, and writes the block back over the same rows of
  the output array.  The output's blocks tile its 8192 rows, so after the launch the output array holds the sign
  of the input array at every index — whatever the buffers held when the launch was entered.
-/
import proofs.«106237_j39573828666264_2_alg».proof.Proof.Gen.KernelIdeal.Frame
import proofs.«106237_j39573828666264_2_alg».proof.Proof.Payloads
import Idealize.ShloMosaic.Lib.Pipeline.Value

set_option maxRecDepth 16384

noncomputable section

namespace Cert.KernelIdeal.Sign0

open Cert.KernelIdeal Cert.KernelIdeal.Gen Cert.BinaryDense
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The input's and the output's block at point `t` both start at row block `t` and column block `0`. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the sign of the input array as the launch finds it. -/
theorem flushed_eq (c : Dev nD) (t : Fin cfg0.N) :
    (dat0 V c).flushed 1 t = ((cfg0.win 1).blk t).view.read (Elt Ideal) (sgn (s := S8192x4096) (V c main_arg0)) := by
  show (cfg0.win 1).cut (grid0.coords t) ((dat0 V c).after 1 t) = _
  rw [after0_1]
  unfold out0_1
  rw [View.canon_unit_zero zero_offsets]
  simp only [View.ld_unit_zero (S := S512x4096) zero_offsets]
  rw [Payloads.pay0_sign]
  obtain ⟨e0, e1, e2, e3⟩ := block_index t
  funext j
  show Ideal.sign (V c main_arg0 (((cfg0.win 0).blk t).view.emb j)) = Ideal.sign (V c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the output array is in point `t`'s block iff each coordinate is in the block's range on its axis. -/
theorem mem_block (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_call0_v0).slice (win0_1.rect t)).set ↔ _
  rw [View.set_slice_whole, Rect.mem_set_unit]
  exact Iff.rfl

/-- Row `r` of the output lies in the block of point `r / 512`. -/
theorem covered (i : S8192x4096.Idx) :
    ∃ t : Fin cfg0.N, (cfg0.win 1).flush t = true ∧ i ∈ ((cfg0.win 1).blk t).view.set := by
  have hN : cfg0.N = 16 := N_0
  have hi0 : (i 0).val < 8192 := (i 0).isLt
  have hi1 : (i 1).val < 4096 := (i 1).isLt
  refine ⟨⟨(i 0).val / 512, by rw [hN]; omega⟩, flush0_1 _, ?_⟩
  rw [mem_block]
  obtain ⟨-, -, e2, e3⟩ := block_index ⟨(i 0).val / 512, by rw [hN]; omega⟩
  intro a
  match a with
  | ⟨0, _⟩ =>
    show win0_1.index _ (0 : Fin 2) * 512 ≤ (i 0).val ∧ (i 0).val < win0_1.index _ (0 : Fin 2) * 512 + 512
    rw [e2]; show (i 0).val / 512 * 512 ≤ (i 0).val ∧ (i 0).val < (i 0).val / 512 * 512 + 512; omega
  | ⟨1, _⟩ =>
    show win0_1.index _ (1 : Fin 2) * 4096 ≤ (i 1).val ∧ (i 1).val < win0_1.index _ (1 : Fin 2) * 4096 + 4096
    rw [e3]; omega

/-- After the launch the output array is the sign of the input array, entry by entry. -/
theorem final (c : Dev nD) : (dat0 V c).arrAt 1 cfg0.N = sgn (s := S8192x4096) (V c main_arg0) :=
  (dat0 V c).arrAt_eq_of_cover 1 _ (fun t _ => flushed_eq V c t) (covered)

end Cert.KernelIdeal.Sign0

end
-- ==== Proof.SignW.lean ====
/-
  The second binarizing launch: the signs of `w` into the second intermediate array.  The grid has 8 points; point `t` loads rows `512·t … 512·t + 511` of
  the input (all 4096 columns), stores the sign of every entry, and writes the block back over the same rows of
  the output array.  The output's blocks tile its 4096 rows, so after the launch the output array holds the sign
  of the input array at every index — whatever the buffers held when the launch was entered.
-/
import proofs.«106237_j39573828666264_2_alg».proof.Proof.Gen.KernelIdeal.Frame
import proofs.«106237_j39573828666264_2_alg».proof.Proof.Payloads
import Idealize.ShloMosaic.Lib.Pipeline.Value

set_option maxRecDepth 16384

noncomputable section

namespace Cert.KernelIdeal.Sign1

open Cert.KernelIdeal Cert.KernelIdeal.Gen Cert.BinaryDense
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The input's and the output's block at point `t` both start at row block `t` and column block `0`. -/
theorem block_index : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is block `t` of the sign of the input array as the launch finds it. -/
theorem flushed_eq (c : Dev nD) (t : Fin cfg1.N) :
    (dat1 V c).flushed 1 t = ((cfg1.win 1).blk t).view.read (Elt Ideal) (sgn (s := S4096x4096) (V c main_arg1)) := by
  show (cfg1.win 1).cut (grid1.coords t) ((dat1 V c).after 1 t) = _
  rw [after1_1]
  unfold out1_1
  rw [View.canon_unit_zero zero_offsets]
  simp only [View.ld_unit_zero (S := S512x4096) zero_offsets]
  rw [Payloads.pay1_sign]
  obtain ⟨e0, e1, e2, e3⟩ := block_index t
  funext j
  show Ideal.sign (V c main_arg1 (((cfg1.win 0).blk t).view.emb j)) = Ideal.sign (V c main_arg1 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 512 + 1 * (j 0).val = win1_1.index t (0 : Fin 2) * 512 + 1 * (j 0).val; omega
    | ⟨1, _⟩ => show win1_0.index t (1 : Fin 2) * 4096 + 1 * (j 1).val = win1_1.index t (1 : Fin 2) * 4096 + 1 * (j 1).val; omega
  rw [h0]

/-- An index of the output array is in point `t`'s block iff each coordinate is in the block's range on its axis. -/
theorem mem_block (t : Fin cfg1.N) (i : S4096x4096.Idx) :
    i ∈ ((cfg1.win 1).blk t).view.set ↔ ∀ a : Fin 2, win1_1.index t a * S512x4096.size a ≤ (i a).val ∧ (i a).val < win1_1.index t a * S512x4096.size a + S512x4096.size a := by
  show i ∈ ((View.whole main_call0_v1).slice (win1_1.rect t)).set ↔ _
  rw [View.set_slice_whole, Rect.mem_set_unit]
  exact Iff.rfl

/-- Row `r` of the output lies in the block of point `r / 512`. -/
theorem covered (i : S4096x4096.Idx) :
    ∃ t : Fin cfg1.N, (cfg1.win 1).flush t = true ∧ i ∈ ((cfg1.win 1).blk t).view.set := by
  have hN : cfg1.N = 8 := N_1
  have hi0 : (i 0).val < 4096 := (i 0).isLt
  have hi1 : (i 1).val < 4096 := (i 1).isLt
  refine ⟨⟨(i 0).val / 512, by rw [hN]; omega⟩, flush1_1 _, ?_⟩
  rw [mem_block]
  obtain ⟨-, -, e2, e3⟩ := block_index ⟨(i 0).val / 512, by rw [hN]; omega⟩
  intro a
  match a with
  | ⟨0, _⟩ =>
    show win1_1.index _ (0 : Fin 2) * 512 ≤ (i 0).val ∧ (i 0).val < win1_1.index _ (0 : Fin 2) * 512 + 512
    rw [e2]; show (i 0).val / 512 * 512 ≤ (i 0).val ∧ (i 0).val < (i 0).val / 512 * 512 + 512; omega
  | ⟨1, _⟩ =>
    show win1_1.index _ (1 : Fin 2) * 4096 ≤ (i 1).val ∧ (i 1).val < win1_1.index _ (1 : Fin 2) * 4096 + 4096
    rw [e3]; omega

/-- After the launch the output array is the sign of the input array, entry by entry. -/
theorem final (c : Dev nD) : (dat1 V c).arrAt 1 cfg1.N = sgn (s := S4096x4096) (V c main_arg1) :=
  (dat1 V c).arrAt_eq_of_cover 1 _ (fun t _ => flushed_eq V c t) (covered)

end Cert.KernelIdeal.Sign1

end
-- ==== Proof.Product.lean ====
/-
  The product launch.  The grid has 16 points; point `t` loads rows `512·t … 512·t + 511` of the first
  intermediate array (all 4096 columns) and the whole 4096 × 4096 second intermediate array, multiplies them
  into a zero accumulator, and writes the 512 × 4096 block back over the same rows of the result array.  Entry
  `(p, j)` of the block is the sum over `q` of the first block's `(p, q)` times the second's `(q, j)`; row `p` of the
  block is row `512·t + p` of the array, so the block is block `t` of the whole product.  The result's blocks tile
  its 8192 rows, so after the launch the result array is the product of the two arrays the launch was entered with.
-/
import proofs.«106237_j39573828666264_2_alg».proof.Proof.Gen.KernelIdeal.Frame
import proofs.«106237_j39573828666264_2_alg».proof.Proof.Payloads
import Idealize.ShloMosaic.Lib.Pipeline.Value

set_option maxRecDepth 16384

noncomputable section

namespace Cert.KernelIdeal.Product

open Cert.KernelIdeal Cert.KernelIdeal.Gen Cert.BinaryDense
open Idealize.ShloMosaic Idealize.ShloMosaic.TcCoe Idealize.ShloMosaic.ValueIdx Idealize.SL.Sem
open Idealize.ShloMosaic.Pipeline (Dat)

/-- A block of a product is the product of the blocks: if `a` is the rows of `A` that `rows` names (columns kept),
    `b` is `B` itself, and the block's entry `j` sits at `at j` of the array — in the row `rows` names and in its own
    column —, then the blocks' product at `j` is the arrays' product at `at j`. -/
theorem block_prod (A : S8192x4096.Idx → EReal) (B : S4096x4096.Idx → EReal)
    (a : S512x4096.Idx → EReal) (b : S4096x4096.Idx → EReal)
    (e0 : S512x4096.Idx → S8192x4096.Idx) (e1 : S4096x4096.Idx → S4096x4096.Idx) (e2 : S512x4096.Idx → S8192x4096.Idx)
    (ha : ∀ y, a y = A (e0 y)) (hb : ∀ y, b y = B (e1 y))
    (h0 : ∀ (j : S512x4096.Idx) (q : Fin 4096), e0 (ix2 (j 0) q) = ix2 ((e2 j) 0) q)
    (h1 : ∀ (j : S512x4096.Idx) (q : Fin 4096), e1 (ix2 q (j 1)) = ix2 q ((e2 j) 1)) (j : S512x4096.Idx) :
    prod a b j = prod A B (e2 j) := by
  show ∑ q : Fin 4096, a (ix2 (j 0) q) * b (ix2 q (j 1)) = ∑ q : Fin 4096, A (ix2 ((e2 j) 0) q) * B (ix2 q ((e2 j) 1))
  refine Finset.sum_congr rfl fun q _ => ?_
  rw [ha, hb, h0, h1]
  rfl

variable (V : (c : Dev nD) → (b : Ref sig .tc) → Buf (Elt Ideal) ((c : Thread nD τ).loc b))

theorem zero_offsets : (![0, 0] : Fin 2 → Nat) = fun _ => 0 := funext fun a => by fin_cases a <;> rfl

/-- The first operand's and the result's block at point `t` start at row block `t`, column block `0`; the second
    operand's block is always the whole array. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two intermediate arrays as the launch finds them. -/
theorem flushed_eq (c : Dev nD) (t : Fin cfg2.N) :
    (dat2 V c).flushed 2 t = ((cfg2.win 2).blk t).view.read (Elt Ideal)
      (prod (M := 8192) (K := 4096) (N := 4096) (V c main_call0_v0) (V c main_call0_v1)) := by
  show (cfg2.win 2).cut (grid2.coords t) ((dat2 V c).after 2 t) = _
  rw [after2_2]
  unfold out2_2
  rw [View.canon_unit_zero zero_offsets]
  simp only [View.ld_unit_zero (S := S512x4096) zero_offsets, View.ld_unit_zero (S := S4096x4096) zero_offsets]
  rw [Payloads.pay2_prod]
  obtain ⟨e0, e1, e2, e3, e4, e5⟩ := block_index t
  funext j
  refine block_prod (V c main_call0_v0) (V c main_call0_v1) (iblk2 V c 0 t) (iblk2 V c 1 t)
    (fun y => ((cfg2.win 0).blk t).view.emb y) (fun y => ((cfg2.win 1).blk t).view.emb y)
    (fun y => ((cfg2.win 2).blk t).view.emb y) (fun _ => rfl) (fun _ => rfl) ?_ ?_ j
  · intro j q
    funext a; apply Fin.ext
    match a with
    | ⟨0, _⟩ => show win2_0.index t (0 : Fin 2) * 512 + 1 * (j 0).val = win2_2.index t (0 : Fin 2) * 512 + 1 * (j 0).val; omega
    | ⟨1, _⟩ => show win2_0.index t (1 : Fin 2) * 4096 + 1 * q.val = q.val; omega
  · intro j q
    funext a; apply Fin.ext
    match a with
    | ⟨0, _⟩ => show win2_1.index t (0 : Fin 2) * 4096 + 1 * q.val = q.val; omega
    | ⟨1, _⟩ => show win2_1.index t (1 : Fin 2) * 4096 + 1 * (j 1).val = win2_2.index t (1 : Fin 2) * 4096 + 1 * (j 1).val; omega

/-- An index of the result array is in point `t`'s block iff each coordinate is in the block's range on its axis. -/
theorem mem_block (t : Fin cfg2.N) (i : S8192x4096.Idx) :
    i ∈ ((cfg2.win 2).blk t).view.set ↔ ∀ a : Fin 2, win2_2.index t a * S512x4096.size a ≤ (i a).val ∧ (i a).val < win2_2.index t a * S512x4096.size a + S512x4096.size a := by
  show i ∈ ((View.whole main_v0).slice (win2_2.rect t)).set ↔ _
  rw [View.set_slice_whole, Rect.mem_set_unit]
  exact Iff.rfl

/-- Row `r` of the result lies in the block of point `r / 512`. -/
theorem covered (i : S8192x4096.Idx) :
    ∃ t : Fin cfg2.N, (cfg2.win 2).flush t = true ∧ i ∈ ((cfg2.win 2).blk t).view.set := by
  have hN : cfg2.N = 16 := N_2
  have hi0 : (i 0).val < 8192 := (i 0).isLt
  have hi1 : (i 1).val < 4096 := (i 1).isLt
  refine ⟨⟨(i 0).val / 512, by rw [hN]; omega⟩, flush2_2 _, ?_⟩
  rw [mem_block]
  obtain ⟨-, -, -, -, e4, e5⟩ := block_index ⟨(i 0).val / 512, by rw [hN]; omega⟩
  intro a
  match a with
  | ⟨0, _⟩ =>
    show win2_2.index _ (0 : Fin 2) * 512 ≤ (i 0).val ∧ (i 0).val < win2_2.index _ (0 : Fin 2) * 512 + 512
    rw [e4]; show (i 0).val / 512 * 512 ≤ (i 0).val ∧ (i 0).val < (i 0).val / 512 * 512 + 512; omega
  | ⟨1, _⟩ =>
    show win2_2.index _ (1 : Fin 2) * 4096 ≤ (i 1).val ∧ (i 1).val < win2_2.index _ (1 : Fin 2) * 4096 + 4096
    rw [e5]; omega

/-- After the launch the result array is the product of the two intermediate arrays, entry by entry. -/
theorem final (c : Dev nD) : (dat2 V c).arrAt 2 cfg2.N
    = prod (M := 8192) (K := 4096) (N := 4096) (V c main_call0_v0) (V c main_call0_v1) :=
  (dat2 V c).arrAt_eq_of_cover 2 _ (fun t _ => flushed_eq V c t) (covered)

end Cert.KernelIdeal.Product

end
-- ==== Proof.KernelValue.lean ====
/-
  The idealized kernel's result as one function of its two arguments.  Reading the boundary contents back
  through the three launches: the first intermediate array leaves the first launch as the sign of `x` and the
  second launch does not touch it; the second intermediate array leaves the second launch as the sign of `w`
  (the first launch left `w` as launched); the third launch leaves the result array at the product of the two
  intermediates as it finds them.  So the result is the product of the signs.
-/
import proofs.«106237_j39573828666264_2_alg».proof.Proof.KernelRun
import proofs.«106237_j39573828666264_2_alg».proof.Proof.SignX
import proofs.«106237_j39573828666264_2_alg».proof.Proof.SignW
import proofs.«106237_j39573828666264_2_alg».proof.Proof.Product

set_option maxRecDepth 16384

noncomputable section

namespace Cert.KernelIdeal.Whole

open Cert.KernelIdeal Cert.KernelIdeal.Gen Cert.BinaryDense
open Idealize.ShloMosaic Idealize.ShloMosaic.TcCoe Idealize.SL.Sem

variable (m : (ℓ : Loc nD τ sig) → Buf (Elt Ideal) ℓ) (ρ : Dev nD → PrngReg)

/-- Entering the third launch, the first intermediate array holds the sign of `x`. -/
theorem first_eq (c : Dev nD) :
    V2 m ρ c main_call0_v0 = sgn (s := S8192x4096) (m ((c : Thread nD τ).loc main_arg0)) :=
  calc W2 m ρ c (Proc.devRef .tc main_call0_v0)
    _ = W1 m ρ c (Proc.devRef .tc main_call0_v0) := W2_of_ne m ρ c main_call0_v0 (by decide)
    _ = (dat0 (V0 m ρ) c).arrAt 1 cfg0.N := W1_arr m ρ c 1
    _ = sgn (s := S8192x4096) (V0 m ρ c main_arg0) := Sign0.final (V0 m ρ) c
    _ = sgn (s := S8192x4096) (m ((c : Thread nD τ).loc main_arg0)) := rfl

/-- Entering the third launch, the second intermediate array holds the sign of `w`. -/
theorem second_eq (c : Dev nD) :
    V2 m ρ c main_call0_v1 = sgn (s := S4096x4096) (m ((c : Thread nD τ).loc main_arg1)) :=
  calc W2 m ρ c (Proc.devRef .tc main_call0_v1)
    _ = (dat1 (V1 m ρ) c).arrAt 1 cfg1.N := W2_arr m ρ c 1
    _ = sgn (s := S4096x4096) (V1 m ρ c main_arg1) := Sign1.final (V1 m ρ) c
    _ = sgn (s := S4096x4096) (W0 m ρ c (Proc.devRef .tc main_arg1)) := congrArg (sgn (s := S4096x4096)) (W1_of_ne m ρ c main_arg1 (by decide))
    _ = sgn (s := S4096x4096) (m ((c : Thread nD τ).loc main_arg1)) := rfl

/-- The result buffer's contents at the last boundary are the product of the signs of the arguments. -/
theorem result_eq (c : Dev nD) :
    W3 m ρ c (Proc.devRef .tc main_v0)
      = result (m ((c : Thread nD τ).loc main_arg0)) (m ((c : Thread nD τ).loc main_arg1)) :=
  calc W3 m ρ c (Proc.devRef .tc main_v0)
    _ = (dat2 (V2 m ρ) c).arrAt 2 cfg2.N := W3_arr m ρ c 2
    _ = prod (M := 8192) (K := 4096) (N := 4096) (V2 m ρ c main_call0_v0) (V2 m ρ c main_call0_v1) := Product.final (V2 m ρ) c
    _ = result (m ((c : Thread nD τ).loc main_arg0)) (m ((c : Thread nD τ).loc main_arg1)) := by
        rw [first_eq m ρ c, second_eq m ρ c]; rfl

/-- Every weakly fair execution of the idealized kernel terminates, nothing faulting, with the result array at the
    product of the signs of the arguments and the arguments as launched. -/
theorem run : θ_run defs (onTc (τ := τ) (main (F := Ideal))) ⟨m, fun _ => 0, ρ⟩ (fun r => ∀ c : Dev nD,
      r.2.mem ((c.tc : Thread nD τ).loc main_v0)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (Run.run m ρ)

end Cert.KernelIdeal.Whole

end
-- ==== Proof.lean ====
/-
  A binary dense layer: both inputs are replaced by their entrywise signs and the two sign matrices are
  multiplied, `out = sign(x) · sign(w)` with `x` of 8192 × 4096 and `w` of 4096 × 4096.

  The kernel does it in three launches.  Two of them binarize: they walk the rows of their input in blocks of
  512 and store, for each entry, `-1` below zero, `1` above zero and the entry itself at zero, in a sixteen-bit
  format that holds these three values exactly.  The third walks the rows of the first sign matrix in blocks of
  512 and multiplies each block by the whole second sign matrix.  The reference takes the two signs on the host
  and contracts them in one matrix product.

  On the extended reals both are the same sums of the same products (Proof/Spec.lean): the kernel's sign by
  comparisons is the order's sign at every extended real, a change of float format changes no value, a block of
  a product is the product of the blocks, and the blocks of each launch tile its output.  No law of arithmetic
  beyond that is used, so the inputs' finiteness is never needed.

  The two sites where the kernel read a float's sign bit through its word are restated by the idealization as a
  comparison with zero; `preserves` is that rule's statement at each site.
-/
import proofs.«106237_j39573828666264_2_alg».proof.Defs
import proofs.«106237_j39573828666264_2_alg».proof.Proof.Gen.Kernel
import proofs.«106237_j39573828666264_2_alg».proof.Proof.Gen.Kernel.Frame
import proofs.«106237_j39573828666264_2_alg».proof.Proof.Gen.KernelIdeal
import proofs.«106237_j39573828666264_2_alg».proof.Proof.Gen.KernelIdeal.Frame
import proofs.«106237_j39573828666264_2_alg».proof.Proof.Gen.ReferenceIdeal
import proofs.«106237_j39573828666264_2_alg».proof.Proof.Gen.ReferenceIdeal.Run
import proofs.«106237_j39573828666264_2_alg».proof.Proof.Gen.Pre_finite_inputs
import proofs.«106237_j39573828666264_2_alg».proof.Proof.RefValue
import proofs.«106237_j39573828666264_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two sign-bit sites, one in each binarizing kernel: reading "one with the sign bit of `v`" as
    "`-1` where `v < 0`, else `1`". -/
theorem preserves : Cert.preserves_Kernel_KernelIdeal :=
  ⟨IdealRules.sign_bit.statement Cert.KernelIdeal.S512x4096 .f32, IdealRules.sign_bit.statement Cert.KernelIdeal.S512x4096 .f32⟩

/-- From memories that agree on `x` and `w`, the idealized kernel and the idealized reference both end with the
    result array at the product of the signs. -/
theorem algebraic : Cert.algebraic_KernelIdeal_ReferenceIdeal := by
  intro m ρ m' ρ' _ hagree
  refine ⟨fun c => Cert.BinaryDense.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
